-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S50000x2048 : Shape := ⟨2, ![50000, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S50000x2048 : S_.BroadcastsInDim S50000x2048 (![] : Fin 0 → Fin S50000x2048.rank)
  reducesTo_S50000x2048_S_d0_1 : S50000x2048.ReducesTo [0, 1] S_

variable [Facts]

def fn {F : FTy → Type} [FloatOps F] (main_arg0 : FVec F S4096x2048 .f32) (main_arg1 : IVec S4096 32) (main_arg2 : FVec F S50000x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S50000x2048 .f32 := Host.absf main_arg2
  let main_cst_0 : FVec F S_ .f32 := constant S_ .f32 0x7F800000#32
  let main_v5 : FVec F S50000x2048 .f32 := broadcastInDim S50000x2048 ![] bcast_S_S50000x2048 main_cst_0
  let main_v6 : IVec S50000x2048 1 := cmpf .olt main_v4 main_v5
  let main_c_1 : IVec S_ 1 := constantI S_ 1 1#1
  let main_v7 : IVec S_ 1 := (fun x v => Host.reduce IntOp.andi x v reducesTo_S50000x2048_S_d0_1 h_S_) main_v6 main_c_1
  let main_v8 : IVec S_ 1 := andi main_v3 main_v7
  main_v8
-- ==== Kernel.lean ====
abbrev S4096x2048 : Shape := ⟨2, ![4096, 2048]⟩
abbrev S4096 : Shape := ⟨1, ![4096]⟩
abbrev S50000x2048 : Shape := ⟨2, ![50000, 2048]⟩
abbrev S_ : Shape := ⟨0, ![]⟩
abbrev S50176x2048 : Shape := ⟨2, ![50176, 2048]⟩
abbrev S4096x50176 : Shape := ⟨2, ![4096, 50176]⟩
abbrev S1024x2048 : Shape := ⟨2, ![1024, 2048]⟩
abbrev S512x2048 : Shape := ⟨2, ![512, 2048]⟩
abbrev S1024x512 : Shape := ⟨2, ![1024, 512]⟩
abbrev S4096x50000 : Shape := ⟨2, ![4096, 50000]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S50000x2048, .f32⟩
  | .hbm, ⟨3, _⟩ => ⟨S_, .i32⟩
  | .hbm, ⟨4, _⟩ => ⟨S_, .f32⟩
  | .hbm, ⟨5, _⟩ => ⟨S50176x2048, .f32⟩
  | .hbm, ⟨6, _⟩ => ⟨S4096x50176, .f32⟩
  | .hbm, ⟨7, _⟩ => ⟨S4096x50000, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 98], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S50000x2048_S50176x2048_01760_000 : S50000x2048.Pads (![0, 0] : Fin 2 → Nat) ![176, 0] ![0, 0] S50176x2048
  h_S_ : 0 < S_.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x512_S1024x512_0_0 : ∀ a, (![0, 0] : Fin 2 → Nat) a + S1024x512.size a ≤ S1024x512.size a
  h_S1024x512 : 0 < S1024x512.numel
  slices_S4096x50176_S4096x50000_0_0 : S4096x50176.Slices ![0, 0] S4096x50000
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S50176x2048.size a
  hwx0_1 : ∀ i : grid0.Coords, EltTy.bits .f32 = 32 ∨ (Rect.block (s := S50176x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x50176.size a
  hwx0_2 : ∀ i : grid0.Coords, EltTy.bits .f32 = 32 ∨ (Rect.block (s := S4096x50176) S1024x512.size (cc0_transform_2 i) (hinb0_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S50000x2048 : Shape := ⟨2, ![50000, 2048]⟩
abbrev S4096x50000 : Shape := ⟨2, ![4096, 50000]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S50000x2048, .f32⟩
  | .hbm, ⟨3, _⟩ => ⟨S4096x50000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S4096x2048_S50000x2048_S4096x50000_1_1_0_0_n_n_wf : DotDims.WF S4096x2048 S50000x2048 S4096x50000 [1] [1] [0] [0] [] []

variable [Facts₀]

def dot_S4096x2048_S50000x2048_S4096x50000_1_1_0_0_n_n : DotDims S4096x2048 S50000x2048 S4096x50000 where
  lhsContracting := [1]
  rhsContracting := [1]
  lhsNonContracting := [0]
  rhsNonContracting := [0]
  lhsBatch := []
  rhsBatch := []
  wf := dot_S4096x2048_S50000x2048_S4096x50000_1_1_0_0_n_n_wf

class Facts : Prop extends Facts₀ where

variable [Facts]
-- ==== Proof.RowProduct.lean ====
/-
  The product of one matrix by the transpose of another, entry by entry over the extended reals:
  the entry at row `r` and column `c` is the sum, over the shared axis, of the products of row `r` of the
  first matrix with row `c` of the second. Two facts about it are all the certificate uses: the entry depends
  only on those two rows, and a sum over the shared axis may be re-indexed through any bijection.
-/
import Idealize.ShloMosaic.PureOps.Ideal
import Idealize.ShloMosaic.Lib.ValueIdx

noncomputable section

open scoped BigOperators

namespace Cert.RowProduct

open Idealize.ShloMosaic Idealize.ShloMosaic.ValueIdx

/-- Row `r` of `a` against row `c` of `b`: `∑ k, a[r, k] · b[c, k]`. -/
def rowDot {M N K : Nat} (a : (⟨2, ![M, K]⟩ : Shape).Idx → EReal) (b : (⟨2, ![N, K]⟩ : Shape).Idx → EReal)
    (r : Fin M) (c : Fin N) : EReal :=
  ∑ k : Fin K, a (ix2 r k) * b (ix2 c k)

/-- The whole product `a · bᵀ`, as one function of the result's index. -/
def rowProduct {M N K : Nat} (a : (⟨2, ![M, K]⟩ : Shape).Idx → EReal) (b : (⟨2, ![N, K]⟩ : Shape).Idx → EReal) :
    (⟨2, ![M, N]⟩ : Shape).Idx → EReal :=
  fun i => rowDot a b (i 0) (i 1)

theorem rowProduct_apply {M N K : Nat} (a : (⟨2, ![M, K]⟩ : Shape).Idx → EReal) (b : (⟨2, ![N, K]⟩ : Shape).Idx → EReal)
    (r : Fin M) (c : Fin N) : rowProduct a b (ix2 r c) = rowDot a b r c := rfl

/-- An entry of the product reads one row of each factor: if row `r` of `a` is row `r'` of `a'` and row `c` of `b`
    is row `c'` of `b'`, the two entries are equal. The factors may have different numbers of rows (a block of a
    matrix against the matrix; a matrix against its extension by further rows). -/
theorem rowDot_congr {M M' N N' K : Nat}
    (a : (⟨2, ![M, K]⟩ : Shape).Idx → EReal) (b : (⟨2, ![N, K]⟩ : Shape).Idx → EReal)
    (a' : (⟨2, ![M', K]⟩ : Shape).Idx → EReal) (b' : (⟨2, ![N', K]⟩ : Shape).Idx → EReal)
    (r : Fin M) (c : Fin N) (r' : Fin M') (c' : Fin N')
    (ha : ∀ k : Fin K, a (ix2 r k) = a' (ix2 r' k)) (hb : ∀ k : Fin K, b (ix2 c k) = b' (ix2 c' k)) :
    rowDot a b r c = rowDot a' b' r' c' :=
  Finset.sum_congr rfl fun k _ => by rw [ha k, hb k]

end Cert.RowProduct

end
-- ==== Proof.BlockProduct.lean ====
/-
  What the kernel body computes from one pair of blocks, entry by entry at the extended reals.
  The body loads a block of 1024 rows of the first matrix and a block of 512 rows of the second, narrows both to
  bf16 (no change of value over the extended reals), and multiplies the first by the transpose of the second into
  a zero accumulator. So the stored value at row `p`, column `q` of the 1024 × 512 result block is the sum over the
  2048 shared coordinates of (row `p` of the first block) · (row `q` of the second block): `rowDot`.
-/
import proofs.«100852_j45449343926802_1_alg».proof.Proof.Gen.KernelIdeal.Skeleton
import proofs.«100852_j45449343926802_1_alg».proof.Proof.RowProduct
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.RowProduct

/-- The dimension numbers of the body's product, named shortly. -/
abbrev blockDot : DotDims S1024x2048 S512x2048 S1024x512 := dot_S1024x2048_S512x2048_S1024x512_1_1_0_0_n_n

/-- On its row axis the first factor is read at the result's row. -/
theorem lhs_row (i : S1024x512.Idx) (q : blockDot.contr.Idx) : (blockDot.lhsIdx i q 0).val = (i 0).val := by
  unfold DotDims.lhsIdx
  rw [dif_neg (show ¬(0 : Fin S1024x2048.rank) ∈ blockDot.lhsBatch by decide),
    dif_pos (show (0 : Fin S1024x2048.rank) ∈ blockDot.lhsNonContracting by decide)]
  rfl
/-- On its shared axis the first factor is read at the summation index. -/
theorem lhs_shared (i : S1024x512.Idx) (q : blockDot.contr.Idx) : (blockDot.lhsIdx i q 1).val = (q ⟨0, by decide⟩).val :=
  blockDot.lhsIdx_val_of_single rfl i q
/-- On its row axis the second factor is read at the result's COLUMN: the product is by the transpose. -/
theorem rhs_row (i : S1024x512.Idx) (q : blockDot.contr.Idx) : (blockDot.rhsIdx i q 0).val = (i 1).val := by
  unfold DotDims.rhsIdx
  rw [dif_neg (show ¬(0 : Fin S512x2048.rank) ∈ blockDot.rhsBatch by decide),
    dif_pos (show (0 : Fin S512x2048.rank) ∈ blockDot.rhsNonContracting by decide)]
  rfl
/-- On its shared axis the second factor is read at the summation index. -/
theorem rhs_shared (i : S1024x512.Idx) (q : blockDot.contr.Idx) : (blockDot.rhsIdx i q 1).val = (q ⟨0, by decide⟩).val :=
  blockDot.rhsIdx_val_of_single rfl i q

/-- The product of two blocks into the zero accumulator, at row `p` and column `q`, is the sum over the shared axis
    of the products of row `p` of the first with row `q` of the second. -/
theorem matmul_zero_apply (l : FVec Ideal S1024x2048 .bf16) (r : FVec Ideal S512x2048 .bf16) (p : Fin 1024) (q : Fin 512) :
    FloatOps.matmul blockDot none l r (constant S1024x512 .f32 0x00000000#32) (ix2 p q)
      = ∑ k : Fin 2048, l (ix2 p k) * r (ix2 q k) := by
  rw [Ideal.matmul_constant_zero_apply, ← Equiv.sum_comp (contrEquiv1 blockDot 2048 rfl rfl).symm]
  refine Finset.sum_congr rfl fun k _ => ?_
  have hk := contrEquiv1_symm_val blockDot 2048 rfl rfl k
  have el : blockDot.lhsIdx (ix2 p q) ((contrEquiv1 blockDot 2048 rfl rfl).symm k) = ix2 p k := funext fun a => Fin.ext (by
    match a with
    | ⟨0, _⟩ => exact lhs_row _ _
    | ⟨1, _⟩ => exact (lhs_shared _ _).trans hk)
  have er : blockDot.rhsIdx (ix2 p q) ((contrEquiv1 blockDot 2048 rfl rfl).symm k) = ix2 q k := funext fun a => Fin.ext (by
    match a with
    | ⟨0, _⟩ => exact rhs_row _ _
    | ⟨1, _⟩ => exact (rhs_shared _ _).trans hk)
  rw [el, er]

/-- The body's stored value at an entry: the narrowing to bf16 and the cast to the same shape change nothing at the
    extended reals, and what is left is the product above. -/
theorem payload_apply (x0 : Vec Ideal S1024x2048 .f32) (x1 : Vec Ideal S512x2048 .f32) (p : Fin 1024) (q : Fin 512) :
    k0_pay1 (F := Ideal) x0 x1 (ix2 p q) = rowDot x0 x1 p q := by
  unfold k0_pay1
  simp only [shapeCast_self]
  exact matmul_zero_apply _ _ p q

/-- The stored value against two LARGER matrices: if row `p` of the first block is row `r` of `A` and row `q` of the
    second block is row `cc` of `B`, the stored entry at (`p`, `q`) is the entry of `A · Bᵀ` at (`r`, `cc`). -/
theorem payload_entry {M N : Nat} (A : (⟨2, ![M, 2048]⟩ : Shape).Idx → EReal) (B : (⟨2, ![N, 2048]⟩ : Shape).Idx → EReal)
    (x0 : Vec Ideal S1024x2048 .f32) (x1 : Vec Ideal S512x2048 .f32) (p : Fin 1024) (q : Fin 512) (r : Fin M) (cc : Fin N)
    (h0 : ∀ k : Fin 2048, x0 (ix2 p k) = A (ix2 r k)) (h1 : ∀ k : Fin 2048, x1 (ix2 q k) = B (ix2 cc k)) :
    k0_pay1 (F := Ideal) x0 x1 (ix2 p q) = rowProduct A B (ix2 r cc) :=
  (payload_apply x0 x1 p q).trans (rowDot_congr x0 x1 A B p q r cc h0 h1)

/-- The same for the whole block: the body's stored value is the product of its two blocks. -/
theorem payload_eq (x0 : Vec Ideal S1024x2048 .f32) (x1 : Vec Ideal S512x2048 .f32) :
    k0_pay1 (F := Ideal) x0 x1 = rowProduct x0 x1 := by
  funext j
  obtain ⟨p, q, rfl⟩ : ∃ (p : Fin 1024) (q : Fin 512), j = ix2 p q := ⟨j 0, j 1, eq_ix2 j⟩
  exact payload_apply x0 x1 p q

end Cert.KernelIdeal.BlockValue

end
-- ==== Proof.ProductArray.lean ====
/-
  From blocks to the array. The grid has 4 × 98 points; at point (`a`, `b`) the body sees rows
  `1024·a … 1024·a + 1023` of the first matrix and rows `512·b … 512·b + 511` of the second (the row-extended one, 50176
  rows), and writes back the 1024 × 512 block of the result whose corner is (`1024·a`, `512·b`). Each written block
  is the corresponding block of ONE function of the two arrays, their row product; the 392 blocks tile the
  4096 × 50176 result; so after the region the result array IS that product.
-/
import proofs.«100852_j45449343926802_1_alg».proof.Proof.Gen.KernelIdeal.Frame
import proofs.«100852_j45449343926802_1_alg».proof.Proof.BlockProduct
import Idealize.ShloMosaic.Lib.Pipeline.Value

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.RowProduct Cert.KernelIdeal.BlockValue
open Idealize.ShloMosaic.Pipeline (Dat Cfg Window)

variable (m : (ℓ : Loc nD τ sig) → Buf (Elt Ideal) ℓ)

/-- Every access of the body starts at the corner of its buffer. -/
theorem corner : (![0, 0] : Fin 2 → Nat) = fun _ => 0 := funext fun a => by fin_cases a <;> rfl

/-- The three index maps over the grid: the first matrix's block row is the result's block row, the second matrix's block
    row is the result's block column, neither input is cut along the shared axis, and the result's block indices range
    over 4 × 98. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 97 :=
  (by decide +kernel : ∀ t : Fin grid0.N, _)

/-- The grid is walked row of blocks by row of blocks, 98 points to a row: point `t` writes block (`t / 98`, `t % 98`). -/
theorem block_at_point : ∀ t : Fin cfg0.N, win0_2.index t = ![t.val / 98, t.val % 98] :=
  (by decide +kernel : ∀ t : Fin grid0.N, win0_2.index t = ![t.val / 98, t.val % 98])

/-- Row `p` of the first input's block at point `t` is row `r` of the first matrix, `r` the block's first row plus `p`. -/
theorem read_first (c : Dev nD) (t : Fin cfg0.N) (p : Fin 1024) (k : Fin 2048) (r : Fin 4096)
    (hr : r.val = win0_0.index t (0 : Fin 2) * 1024 + p.val) (h1 : win0_0.index t (1 : Fin 2) = 0) :
    iblk m c 0 t (ix2 p k) = V m c main_arg0 (ix2 r k) := by
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- Row `q` of the second input's block at point `t` is row `cc` of the row-extended second matrix. -/
theorem read_second (c : Dev nD) (t : Fin cfg0.N) (q : Fin 512) (k : Fin 2048) (cc : Fin 50176)
    (hc : cc.val = win0_1.index t (0 : Fin 2) * 512 + q.val) (h1 : win0_1.index t (1 : Fin 2) = 0) :
    iblk m c 1 t (ix2 q k) = V m c main_v0 (ix2 cc k) := by
  show V m c main_v0 (((cfg0.win 1).blk t).view.emb (ix2 q k)) = _
  refine congrArg (V m c main_v0) (funext fun a => Fin.ext ?_)
  match a with
  | ⟨0, _⟩ => show win0_1.index t (0 : Fin 2) * 512 + 1 * q.val = cc.val; omega
  | ⟨1, _⟩ => show win0_1.index t (1 : Fin 2) * 2048 + 1 * k.val = k.val; omega

/-- WHAT POINT `t` WRITES BACK is block `t` of the row product of the two arrays as the region finds them. -/
theorem flushed_eq (c : Dev nD) (t : Fin cfg0.N) :
    (dats m 0 c).flushed 2 t = ((cfg0.win 2).blk t).view.read (Elt Ideal)
      (rowProduct (M := 4096) (N := 50176) (K := 2048) (V m c main_arg0) (V m c main_v0)) := by
  show (cfg0.win 2).cut (grid0.coords t) ((dats m 0 c).after 2 t) = _
  rw [after0_2]
  unfold out0_2
  rw [View.canon_unit_zero corner]
  simp only [View.ld_unit_zero (S := S1024x2048) corner, View.ld_unit_zero (S := S512x2048) corner]
  obtain ⟨e0, e1, e2, e3, e4, e5⟩ := block_indices t
  funext j
  obtain ⟨p, q, rfl⟩ : ∃ (p : Fin 1024) (q : Fin 512), j = ix2 p q := ⟨j 0, j 1, eq_ix2 (n0 := 1024) (n1 := 512) j⟩
  have hp : p.val < 1024 := p.isLt
  have hq : q.val < 512 := q.isLt
  have hi : ((cfg0.win 2).blk t).view.emb (ix2 p q)
      = ix2 (⟨win0_2.index t (0 : Fin 2) * 1024 + p.val, by omega⟩ : Fin 4096) (⟨win0_2.index t (1 : Fin 2) * 512 + q.val, by omega⟩ : Fin 50176) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 512 + 1 * q.val = win0_2.index t (1 : Fin 2) * 512 + q.val; omega
  show k0_pay1 (F := Ideal) (iblk m c 0 t) (iblk m c 1 t) (ix2 p q)
    = rowProduct (M := 4096) (N := 50176) (K := 2048) (V m c main_arg0) (V m c main_v0) (((cfg0.win 2).blk t).view.emb (ix2 p q))
  refine (payload_entry (V m c main_arg0) (V m c main_v0) (iblk m c 0 t) (iblk m c 1 t) p q
    (⟨win0_2.index t (0 : Fin 2) * 1024 + p.val, by omega⟩ : Fin 4096) (⟨win0_2.index t (1 : Fin 2) * 512 + q.val, by omega⟩ : Fin 50176)
    (fun k => read_first m c t p k _ (by show win0_2.index t (0 : Fin 2) * 1024 + p.val = _; omega) e1)
    (fun k => read_second m c t q k _ (by show win0_2.index t (1 : Fin 2) * 512 + q.val = _; omega) e3)).trans ?_
  exact congrArg (rowProduct (M := 4096) (N := 50176) (K := 2048) (V m c main_arg0) (V m c main_v0)) hi.symm

/-- An index of the result array is in point `t`'s block iff each coordinate is in the block's range on its axis. -/
theorem mem_block (t : Fin cfg0.N) (i : S4096x50176.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1).slice (win0_2.rect t)).set ↔ _
  rw [View.set_slice_whole, Rect.mem_set_unit]
  exact Iff.rfl

/-- THE BLOCKS TILE THE RESULT: the entry at row `r`, column `cc` lies in block (`r / 1024`, `cc / 512`), written at point
    `98 · (r / 1024) + cc / 512`. -/
theorem covered (i : S4096x50176.Idx) :
    ∃ t : Fin cfg0.N, (cfg0.win 2).flush t = true ∧ i ∈ ((cfg0.win 2).blk t).view.set := by
  have hi0 : (i 0).val < 4096 := (i 0).isLt
  have hi1 : (i 1).val < 50176 := (i 1).isLt
  have hlt : (i 0).val / 1024 * 98 + (i 1).val / 512 < grid0.N := by rw [N_0]; omega
  obtain ⟨t, ht⟩ : ∃ t : Fin cfg0.N, t.val = (i 0).val / 1024 * 98 + (i 1).val / 512 := ⟨⟨_, hlt⟩, rfl⟩
  have q0 : win0_2.index t (0 : Fin 2) = t.val / 98 := congrFun (block_at_point t) 0
  have q1 : win0_2.index t (1 : Fin 2) = t.val % 98 := congrFun (block_at_point t) 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- THE RESULT ARRAY after the region: the row product of the first matrix and the row-extended second one. -/
theorem final (c : Dev nD) :
    (dats m 0 c).arrAt 2 cfg0.N = rowProduct (M := 4096) (N := 50176) (K := 2048) (V m c main_arg0) (V m c main_v0) :=
  (dats m 0 c).arrAt_eq_of_cover 2 _ (fun t _ => flushed_eq m c t) covered

end Cert.KernelIdeal.ArrayValue

end
-- ==== Proof.ExtendedRows.lean ====
/-
  Before the region the host extends the second matrix from 50000 to 50176 rows (176 further rows, all holding one
  padding value) so that its rows split into 98 blocks of 512. An original row is unchanged by this: row `r < 50000` of
  the extended matrix is row `r` of the argument. The further rows only ever meet result columns from 50000 on,
  which the host cuts away after the region, so their contents never matter.
-/
import proofs.«100852_j45449343926802_1_alg».proof.Proof.Gen.KernelIdeal.Frame
import Idealize.ShloMosaic.Lib.KernelVsHost
import Idealize.ShloMosaic.Lib.StableHlo.Run
import Idealize.ShloMosaic.Lib.ValueIdx

noncomputable section

namespace Cert.KernelIdeal.ExtendedRows

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The array the region finds as its second input is the host's padding of the third argument. -/
theorem extended_eq (c : Dev nD) :
    (V m c main_v0 : S50176x2048.Idx → EReal)
      = pad S50176x2048 ![0, 0] ![176, 0] ![0, 0] (m ((c : Thread nD τ).loc main_arg2))
          (sitofp (F := Ideal) .f32 (constantI S_ 32 0#32)) pads_S50000x2048_S50176x2048_01760_000 h_S_ := by
  dsimp only [Gen.V, Gen.V0]
  simp only [Gen.hostOps0, Gen.hostOps0_1, List.flatten_cons, List.flatten_nil, List.append_nil, List.cons_append,
    List.nil_append]
  after_results
  rfl

/-- An original row of the extended matrix is that row of the argument. -/
theorem extended_row (c : Dev nD) (r : Fin 50000) (r' : Fin 50176) (hr : r'.val = r.val) (k : Fin 2048) :
    V m c main_v0 (ix2 r' k) = m ((c : Thread nD τ).loc main_arg2) (ix2 r k) := by
  rw [extended_eq m c]
  refine pad_apply_of_inside _ _ _ _ _ _ _ (ix2 r' k) (ix2 r k) (fun a => ?_)
  match a with
  | ⟨0, _⟩ => show r'.val = 0 + r.val * (0 + 1); omega
  | ⟨1, _⟩ => show k.val = 0 + k.val * (0 + 1); omega

end Cert.KernelIdeal.ExtendedRows

end
-- ==== Proof.KernelRun.lean ====
/-
  The idealized kernel's run, read as a value. After the region the host cuts the 4096 × 50176 result back to its
  first 50000 columns. Column `cc < 50000` of the region's result pairs the rows of the first matrix with row `cc` of the
  row-extended second matrix, which is row `cc` of the argument; so the returned array is the row product of the first
  and third arguments — the same function the reference computes.
-/
import proofs.«100852_j45449343926802_1_alg».proof.Proof.ProductArray
import proofs.«100852_j45449343926802_1_alg».proof.Proof.ExtendedRows
import Idealize.ShloMosaic.Lib.StableHlo.Run
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo Cert.RowProduct

variable (m : (ℓ : Loc nD τ sig) → Buf (Elt Ideal) ℓ) (ρ : Dev nD → PrngReg)

/-- What the host's cut leaves in the returned buffer: the first 50000 columns of the region's result array. -/
theorem tail_eq (c : Dev nD) :
    (Pipeline.afterTail₀ cfgs (dats m) 0 (V0 m) [hostOps1] c main_v2 : S4096x50000.Idx → EReal)
      = extractStridedSlice S4096x50000 ![0, 0] ((dats m 0 c).arrAt 2 cfg0.N) slices_S4096x50176_S4096x50000_0_0 := by
  unfold Pipeline.afterTail₀
  show StableHlo.after hostOps1 _ (Proc.devRef .tc main_v2) = _
  after_results
  exact congrArg (fun x => extractStridedSlice S4096x50000 ![0, 0] x slices_S4096x50176_S4096x50000_0_0)
    (Pipeline.withArrays_arr spec0 launch0.win.arr_inj c _ _ 2)

/-- THE RETURNED ARRAY is the row product of the first and third arguments. -/
theorem result_eq (c : Dev nD) :
    (Pipeline.afterTail₀ cfgs (dats m) 0 (V0 m) [hostOps1] c main_v2 : S4096x50000.Idx → EReal)
      = rowProduct (M := 4096) (N := 50000) (K := 2048) (m ((c : Thread nD τ).loc main_arg0)) (m ((c : Thread nD τ).loc main_arg2)) := by
  rw [tail_eq m c, ArrayValue.final m c]
  funext i
  obtain ⟨r, cc, rfl⟩ : ∃ (r : Fin 4096) (cc : Fin 50000), i = ix2 r cc := ⟨i 0, i 1, eq_ix2 (n0 := 4096) (n1 := 50000) i⟩
  have hcc : cc.val < 50000 := cc.isLt
  refine (extractStridedSlice_apply ![0, 0] _ slices_S4096x50176_S4096x50000_0_0 (ix2 r cc)
    (ix2 r (⟨cc.val, by omega⟩ : Fin 50176)) (fun a => ?_)).trans ?_
  · match a with
    | ⟨0, _⟩ => show r.val = 0 + r.val; omega
    | ⟨1, _⟩ => show cc.val = 0 + cc.val; omega
  · rw [rowProduct_apply, rowProduct_apply]
    exact rowDot_congr _ _ _ _ r (⟨cc.val, by omega⟩ : Fin 50176) r cc
      (fun k => congrFun (V_main_arg0 m c) (ix2 r k))
      (fun k => ExtendedRows.extended_row m c cc (⟨cc.val, by omega⟩ : Fin 50176) rfl k)

/-- THE RUN: every weakly fair execution of the idealized kernel's program terminates, nothing faulting, with the
    returned buffer at the row product of the first and third arguments and the three arguments unchanged. -/
theorem run : θ_run defs (onTc (τ := τ) (main (F := Ideal))) ⟨m, fun _ => 0, ρ⟩ (fun r => ∀ c : Dev nD,
      r.2.mem ((c.tc : Thread nD τ).loc main_v2)
        = rowProduct (M := 4096) (N := 50000) (K := 2048) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.ReferenceProduct.lean ====
/-
  The reference computes the whole product at once: one contraction of the second axes of the two argument
  matrices. Read at row `r` and column `c` it is the sum over the 2048 shared coordinates of (row `r` of the first
  matrix) · (row `c` of the second): the function `rowProduct` of the two arguments.
-/
import proofs.«100852_j45449343926802_1_alg».proof.Proof.Gen.ReferenceIdeal.Read
import proofs.«100852_j45449343926802_1_alg».proof.Proof.RowProduct

noncomputable section

open scoped BigOperators

namespace Cert.ReferenceIdeal.RefValue

open Cert.ReferenceIdeal Cert.ReferenceIdeal.Gen Idealize.ShloMosaic Idealize.ShloMosaic.ValueIdx Cert.RowProduct

/-- The reference's result, as the run states it, is `rowProduct` of its two float arguments. -/
theorem result_eq (x0 : FVec Ideal S4096x2048 .f32) (x2 : FVec Ideal S50000x2048 .f32) :
    Host.dotGeneral (F := Ideal) dot_S4096x2048_S50000x2048_S4096x50000_1_1_0_0_n_n none x0 x2
      = (rowProduct (M := 4096) (N := 50000) (K := 2048) x0 x2 : S4096x50000.Idx → EReal) := by
  rw [Read.val_main_v0_eq]
  funext i
  obtain ⟨r, c, rfl⟩ : ∃ (r : Fin 4096) (c : Fin 50000), i = ix2 r c := ⟨i 0, i 1, eq_ix2 i⟩
  rw [Read.val_main_v0_apply, rowProduct_apply]
  unfold rowDot
  refine Finset.sum_congr rfl fun k _ => ?_
  have el : Read.lidx_main_v0 (ix2 r c) k = ix2 r k := funext fun a => Fin.ext (by
    match a with
    | ⟨0, _⟩ => rfl
    | ⟨1, _⟩ => rfl)
  have er : Read.ridx_main_v0 (ix2 r c) k = ix2 c k := funext fun a => Fin.ext (by
    match a with
    | ⟨0, _⟩ => rfl
    | ⟨1, _⟩ => rfl)
  rw [el, er]

end Cert.ReferenceIdeal.RefValue

end
-- ==== Proof.lean ====
/-
  The kernel computes `inputs · memoryᵀ` (4096 × 2048 by the transpose of 50000 × 2048) tile by tile: the host extends
  `memory` by 176 rows to 50176 = 98 · 512, a 4 × 98 grid multiplies a block of 1024 rows of `inputs` by the transpose of a
  block of 512 rows of the extended `memory` — the whole 2048-long shared axis at once, operands narrowed to bf16, the
  sum kept in f32 — and the host cuts the 4096 × 50176 result back to its first 50000 columns. The reference is one
  contraction of the two arguments' second axes.

  Over the extended reals a change of float format is the identity and a sum has no order, so both programs return
  the array whose entry at (`r`, `c`) is `∑ k, inputs[r, k] · memory[c, k]`:
    * one block pair's stored value is that sum over the rows the blocks hold (Proof/BlockProduct.lean);
    * the written blocks are blocks of one function of the two arrays and tile the result (Proof/ProductArray.lean);
    * an original row of the extended matrix is the argument's row, and the cut keeps only columns that meet original
      rows (Proof/ExtendedRows.lean, Proof/KernelRun.lean);
    * the reference's contraction read at an entry is the same sum (Proof/ReferenceProduct.lean).
  No law used here needs the inputs finite: the two sums are equal term by term. `targets` is read by neither program.
  The idealization rewrote nothing, so the kernel and its idealization are one text read at two instances.
-/
import proofs.«100852_j45449343926802_1_alg».proof.Defs
import proofs.«100852_j45449343926802_1_alg».proof.Proof.Gen.Kernel
import proofs.«100852_j45449343926802_1_alg».proof.Proof.Gen.Kernel.Frame
import proofs.«100852_j45449343926802_1_alg».proof.Proof.Gen.KernelIdeal
import proofs.«100852_j45449343926802_1_alg».proof.Proof.Gen.KernelIdeal.Frame
import proofs.«100852_j45449343926802_1_alg».proof.Proof.Gen.ReferenceIdeal
import proofs.«100852_j45449343926802_1_alg».proof.Proof.Gen.ReferenceIdeal.Run
import proofs.«100852_j45449343926802_1_alg».proof.Proof.Gen.Pre_finite_inputs
import proofs.«100852_j45449343926802_1_alg».proof.Proof.KernelRun
import proofs.«100852_j45449343926802_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the row product of the first and third
    arguments in their result buffers. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
